-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S64x1 : Shape := ⟨2, ![64, 1]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S2x64 .f32) (main_arg10 : FVec F S2 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S2x64 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1000000 .f32) (main_arg1 : FVec F S64x1 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S2x64 .f32) (main_arg10 : FVec F S2 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S1000000 : Shape := ⟨1, ![1000000]⟩
abbrev S64x1 : Shape := ⟨2, ![64, 1]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1000000x1 : Shape := ⟨2, ![1000000, 1]⟩
abbrev S1x64 : Shape := ⟨2, ![1, 64]⟩
abbrev S64x2 : Shape := ⟨2, ![64, 2]⟩
abbrev S1x2 : Shape := ⟨2, ![1, 2]⟩
abbrev S1000000x2 : Shape := ⟨2, ![1000000, 2]⟩
abbrev S2x1000000x64 : Shape := ⟨3, ![2, 1000000, 64]⟩
abbrev S10000x1 : Shape := ⟨2, ![10000, 1]⟩
abbrev S10000x2 : Shape := ⟨2, ![10000, 2]⟩
abbrev S2x10000x64 : Shape := ⟨3, ![2, 10000, 64]⟩
abbrev S10000x64 : Shape := ⟨2, ![10000, 64]⟩
abbrev S1x10000x64 : Shape := ⟨3, ![1, 10000, 64]⟩

abbrev nBuf : Space → Nat
  | .hbm => 22
  | .vmem => 12
  | .smem => 0
  | _ => 0

abbrev bufTy : (tb : Table) → Fin (tcTables nBuf tb) → BufTy
  | .hbm, ⟨0, _⟩ => ⟨S1000000, .f32⟩
  | .hbm, ⟨1, _⟩ => ⟨S64x1, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S2x64, .f32⟩
  | .hbm, ⟨10, _⟩ => ⟨S2, .f32⟩
  | .hbm, ⟨11, _⟩ => ⟨S1000000x1, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64x64, .f32⟩
  | .hbm, ⟨16, _⟩ => ⟨S64, .f32⟩
  | .hbm, ⟨17, _⟩ => ⟨S1x64, .f32⟩
  | .hbm, ⟨18, _⟩ => ⟨S64x2, .f32⟩
  | .hbm, ⟨19, _⟩ => ⟨S1x2, .f32⟩
  | .hbm, ⟨20, _⟩ => ⟨S1000000x2, .f32⟩
  | .hbm, ⟨21, _⟩ => ⟨S2x1000000x64, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x2, .f32⟩
  | .local _ .vmem, ⟨7, _⟩ => ⟨S1x2, .f32⟩
  | .local _ .vmem, ⟨8, _⟩ => ⟨S10000x2, .f32⟩
  | .local _ .vmem, ⟨9, _⟩ => ⟨S10000x2, .f32⟩
  | .local _ .vmem, ⟨10, _⟩ => ⟨S2x10000x64, .f32⟩
  | .local _ .vmem, ⟨11, _⟩ => ⟨S2x10000x64, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x10000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1000000_S1000000x1 : S1000000.ShapeCasts S1000000x1
  transposes_S64x1_S1x64_1_0 : S64x1.Transposes [1, 0] S1x64
  shapeCasts_S64_S1x64 : S64.ShapeCasts S1x64
  transposes_S64x64_S64x64_1_0 : S64x64.Transposes [1, 0] S64x64
  transposes_S2x64_S64x2_1_0 : S2x64.Transposes [1, 0] S64x2
  shapeCasts_S2_S1x2 : S2.ShapeCasts S1x2
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  inb_S2x10000x64_S1x10000x64_0_0_0 : ∀ a, (![0, 0, 0] : Fin 3 → Nat) a + S1x10000x64.size a ≤ S2x10000x64.size a
  h_S1x10000x64 : 0 < S1x10000x64.numel
  shapeCasts_S1x10000x64_S10000x64 : S1x10000x64.ShapeCasts S10000x64
  shapeCasts_S10000x64_S1x10000x64 : S10000x64.ShapeCasts S1x10000x64
  inb_S2x10000x64_S1x10000x64_1_0_0 : ∀ a, (![1, 0, 0] : Fin 3 → Nat) a + S1x10000x64.size a ≤ S2x10000x64.size a
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S1000000x1.size a
  hwx0_0 : ∀ i : grid0.Coords, EltTy.bits .f32 = 32 ∨ (Rect.block (s := S1000000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2.size a ≤ S64x2.size a
  hwx0_5 : ∀ i : grid0.Coords, EltTy.bits .f32 = 32 ∨ (Rect.block (s := S64x2) S64x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x2.size a ≤ S1000000x2.size a
  hwx0_7 : ∀ i : grid0.Coords, EltTy.bits .f32 = 32 ∨ (Rect.block (s := S1000000x2) S10000x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x10000x64.size a ≤ S2x1000000x64.size a
  hwx0_8 : ∀ i : grid0.Coords, EltTy.bits .f32 = 32 ∨ (Rect.block (s := S2x1000000x64) S2x10000x64.size (cc0_transform_8 i) (hinb0_8 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_v0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S10000x2.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S2x10000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1000000 : Shape := ⟨1, ![1000000]⟩
abbrev S64x1 : Shape := ⟨2, ![64, 1]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1000000x1 : Shape := ⟨2, ![1000000, 1]⟩
abbrev S1x64 : Shape := ⟨2, ![1, 64]⟩
abbrev S1000000x64 : Shape := ⟨2, ![1000000, 64]⟩
abbrev S64x2 : Shape := ⟨2, ![64, 2]⟩
abbrev S1000000x2 : Shape := ⟨2, ![1000000, 2]⟩
abbrev S1x2 : Shape := ⟨2, ![1, 2]⟩
abbrev S1x1000000x64 : Shape := ⟨3, ![1, 1000000, 64]⟩
abbrev S2x1000000x64 : Shape := ⟨3, ![2, 1000000, 64]⟩

abbrev nBuf : Space → Nat
  | .hbm => 38
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S64x1, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S2x64, .f32⟩
  | .hbm, ⟨10, _⟩ => ⟨S2, .f32⟩
  | .hbm, ⟨11, _⟩ => ⟨S1000000x1, .f32⟩
  | .hbm, ⟨12, _⟩ => ⟨S1x64, .f32⟩
  | .hbm, ⟨13, _⟩ => ⟨S1000000x64, .f32⟩
  | .hbm, ⟨14, _⟩ => ⟨S1x64, .f32⟩
  | .hbm, ⟨15, _⟩ => ⟨S1000000x64, .f32⟩
  | .hbm, ⟨16, _⟩ => ⟨S1000000x64, .f32⟩
  | .hbm, ⟨17, _⟩ => ⟨S1x64, .f32⟩
  | .hbm, ⟨18, _⟩ => ⟨S1000000x64, .f32⟩
  | .hbm, ⟨19, _⟩ => ⟨S1000000x64, .f32⟩
  | .hbm, ⟨20, _⟩ => ⟨S1000000x64, .f32⟩
  | .hbm, ⟨21, _⟩ => ⟨S64x64, .f32⟩
  | .hbm, ⟨22, _⟩ => ⟨S1000000x64, .f32⟩
  | .hbm, ⟨23, _⟩ => ⟨S1x64, .f32⟩
  | .hbm, ⟨24, _⟩ => ⟨S1000000x64, .f32⟩
  | .hbm, ⟨25, _⟩ => ⟨S1000000x64, .f32⟩
  | .hbm, ⟨26, _⟩ => ⟨S1x64, .f32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S64x2, .f32⟩
  | .hbm, ⟨31, _⟩ => ⟨S1000000x2, .f32⟩
  | .hbm, ⟨32, _⟩ => ⟨S1x2, .f32⟩
  | .hbm, ⟨33, _⟩ => ⟨S1000000x2, .f32⟩
  | .hbm, ⟨34, _⟩ => ⟨S1000000x2, .f32⟩
  | .hbm, ⟨35, _⟩ => ⟨S1x1000000x64, .f32⟩
  | .hbm, ⟨36, _⟩ => ⟨S1x1000000x64, .f32⟩
  | .hbm, ⟨37, _⟩ => ⟨S2x1000000x64, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  transposes_S64x1_S1x64_1_0 : S64x1.Transposes [1, 0] S1x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  transposes_S64x64_S64x64_1_0 : S64x64.Transposes [1, 0] S64x64
  transposes_S2x64_S64x2_1_0 : S2x64.Transposes [1, 0] S64x2
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  bcast_S1000000x64_S1x1000000x64_1_2 : S1000000x64.BroadcastsInDim S1x1000000x64 (![1, 2] : Fin 2 → Fin S1x1000000x64.rank)
  concatenates_S1x1000000x64_S1x1000000x64_S2x1000000x64_d0 : Shape.Concatenates [S1x1000000x64, S1x1000000x64] S2x1000000x64 0
  dot_S1000000x1_S1x64_S1000000x64_1_0_0_1_n_n_wf : DotDims.WF S1000000x1 S1x64 S1000000x64 [1] [0] [0] [1] [] []
  dot_S1000000x64_S64x64_S1000000x64_1_0_0_1_n_n_wf : DotDims.WF S1000000x64 S64x64 S1000000x64 [1] [0] [0] [1] [] []
  dot_S1000000x64_S64x2_S1000000x2_1_0_0_1_n_n_wf : DotDims.WF S1000000x64 S64x2 S1000000x2 [1] [0] [0] [1] [] []

variable [Facts₀]

def dot_S1000000x1_S1x64_S1000000x64_1_0_0_1_n_n : DotDims S1000000x1 S1x64 S1000000x64 where
  lhsContracting := [1]
  rhsContracting := [0]
  lhsNonContracting := [0]
  rhsNonContracting := [1]
  lhsBatch := []
  rhsBatch := []
  wf := dot_S1000000x1_S1x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x2_S1000000x2_1_0_0_1_n_n : DotDims S1000000x64 S64x2 S1000000x2 where
  lhsContracting := [1]
  rhsContracting := [0]
  lhsNonContracting := [0]
  rhsNonContracting := [1]
  lhsBatch := []
  rhsBatch := []
  wf := dot_S1000000x64_S64x2_S1000000x2_1_0_0_1_n_n_wf

class Facts : Prop extends Facts₀ where

variable [Facts]
-- ==== Proof.Spec.lean ====
/-
  The function both programs compute, over the extended reals, written once.

  Every entry x r of the input is a one-step, one-feature recurrent cell with zero initial state, so the two
  recurrent layers are two dense layers through tanh and the head is a third dense layer:

    first r j  = tanh (x r · W0 j 0 + (b0 j + b0' j))
    second r j = tanh (Σ_k first r k · W1 j k + (b1 j + b1' j))
    head r o   = Σ_k second r k · Wf o k + bf o

  The first result array holds head, the second stacks first (slab 0) on second (slab 1).
  The weights are read as stored (unit j is ROW j of W0, W1, Wf); the two biases of a layer are added to
  each other before they meet the product. All sums are over the 64 hidden units.
-/
import Idealize.ShloMosaic.PureOps.Ideal
import Idealize.ShloMosaic.Lib.ValueIdx

noncomputable section

namespace Cert.Stacked

open Idealize.ShloMosaic Idealize.ShloMosaic.ValueIdx

/-- The argument arrays' index types, by their literal extents. -/
abbrev Seq := (⟨1, ![1000000]⟩ : Shape)
abbrev Col := (⟨2, ![64, 1]⟩ : Shape)
abbrev Row := (⟨1, ![64]⟩ : Shape)
abbrev Sq := (⟨2, ![64, 64]⟩ : Shape)
abbrev HeadW := (⟨2, ![2, 64]⟩ : Shape)
abbrev HeadB := (⟨1, ![2]⟩ : Shape)
abbrev OutS := (⟨2, ![1000000, 2]⟩ : Shape)
abbrev HidS := (⟨3, ![2, 1000000, 64]⟩ : Shape)

/-- First layer at entry `r`, unit `j`: the entry times the unit's one weight, plus the two biases, through tanh. -/
def first (x : Seq.Idx → EReal) (w : Col.Idx → EReal) (b b' : Row.Idx → EReal) (r : Fin 1000000) (j : Fin 64) : EReal :=
  Ideal.tanh (x (ix1 r) * w (ix2 j (0 : Fin 1)) + (b (ix1 j) + b' (ix1 j)))

/-- A dense layer of 64 units over a 64-wide row `h r`, through tanh: unit `j` contracts the row with ROW `j` of `W`. -/
def second (h : Fin 1000000 → Fin 64 → EReal) (W : Sq.Idx → EReal) (b b' : Row.Idx → EReal) (r : Fin 1000000) (j : Fin 64) : EReal :=
  Ideal.tanh ((∑ k : Fin 64, h r k * W (ix2 j k)) + (b (ix1 j) + b' (ix1 j)))

/-- The linear head: output `o` contracts the row with ROW `o` of `W` and adds its bias. -/
def head (h : Fin 1000000 → Fin 64 → EReal) (W : HeadW.Idx → EReal) (b : HeadB.Idx → EReal) (r : Fin 1000000) (o : Fin 2) : EReal :=
  (∑ k : Fin 64, h r k * W (ix2 o k)) + b (ix1 o)

/-- The first result: the head of the second layer of the first layer, entry by entry. -/
def outArr (x : Seq.Idx → EReal) (w : Col.Idx → EReal) (b0 b0' : Row.Idx → EReal) (W1 : Sq.Idx → EReal) (b1 b1' : Row.Idx → EReal)
    (Wf : HeadW.Idx → EReal) (bf : HeadB.Idx → EReal) : OutS.Idx → EReal :=
  fun i => head (second (first x w b0 b0') W1 b1 b1') Wf bf (i 0) (i 1)

/-- The second result: slab 0 the first layer's activations, slab 1 the second layer's. -/
def hidArr (x : Seq.Idx → EReal) (w : Col.Idx → EReal) (b0 b0' : Row.Idx → EReal) (W1 : Sq.Idx → EReal) (b1 b1' : Row.Idx → EReal) :
    HidS.Idx → EReal :=
  fun i => if (i 0).val = 0 then first x w b0 b0' (i 1) (i 2) else second (first x w b0 b0') W1 b1 b1' (i 1) (i 2)

end Cert.Stacked

end
-- ==== Proof.RefSide.lean ====
/-
  The reference, read entry by entry, is the specification.

  The reference forms each layer as a matrix product followed by two bias additions, one after the other. On the extended
  reals a product with a contracted axis of extent one is its single term, and addition is associative, so
  (x·w + b) + b' is x·w + (b + b'): no finiteness is needed. Its transposes of the weight matrices make unit j read ROW j
  of the stored weights, and its stacking of the two activations along a new leading axis puts the first layer in slab 0 and
  the second in slab 1.
-/
import proofs.«134664_j13675175870864_2_alg».proof.Proof.Gen.ReferenceIdeal.Read
import proofs.«134664_j13675175870864_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Stacked

variable (x0 : (⟨S1000000, .f32⟩ : BufTy).Contents (Elt Ideal)) (x1 : (⟨S64x1, .f32⟩ : BufTy).Contents (Elt Ideal))
  (x2 x4 : (⟨S64, .f32⟩ : BufTy).Contents (Elt Ideal)) (x5 : (⟨S64x64, .f32⟩ : BufTy).Contents (Elt Ideal))
  (x6 x8 : (⟨S64, .f32⟩ : BufTy).Contents (Elt Ideal))
  (x9 : (⟨S2x64, .f32⟩ : BufTy).Contents (Elt Ideal)) (x10 : (⟨S2, .f32⟩ : BufTy).Contents (Elt Ideal))

/-- The reference's first activation at entry `r`, unit `j`: the one-term product plus the two biases in turn. -/
theorem first_apply (r : Fin 1000000) (j : Fin 64) :
    val_main_v9 (F := Ideal) x0 x1 x2 x4 (ix2 r j) = first x0 x1 x2 x4 r j := by
  rw [val_main_v9_apply, val_main_v8_apply, val_main_v5_apply, val_main_v2_apply, val_main_v4_apply, val_main_v3_apply,
    val_main_v7_apply, val_main_v6_apply, Fin.sum_univ_one, val_main_v0_apply, val_main_v1_apply]
  have e0 : idx_main_v0 (lidx_main_v2 (ix2 r j) (0 : Fin 1)) = ix1 r := funext fun a => match a with | ⟨0, _⟩ => rfl
  have e1 : idx_main_v1 (ridx_main_v2 (ix2 r j) (0 : Fin 1)) = ix2 j (0 : Fin 1) :=
    funext fun a => match a with | ⟨0, _⟩ => rfl | ⟨1, _⟩ => rfl
  have e2 : idx_main_v3 (idx_main_v4 (ix2 r j)) = ix1 j := funext fun a => match a with | ⟨0, _⟩ => rfl
  have e3 : idx_main_v6 (idx_main_v7 (ix2 r j)) = ix1 j := funext fun a => match a with | ⟨0, _⟩ => rfl
  rw [e0, e1, e2, e3]
  unfold first
  simp only [Ideal.hostUnary_tanh_def, Ideal.addf_def, add_assoc]

/-- The reference's second activation: the product over the 64 units of the first, plus the two biases in turn. -/
theorem second_apply (r : Fin 1000000) (j : Fin 64) :
    val_main_v18 (F := Ideal) x0 x1 x2 x4 x5 x6 x8 (ix2 r j) = second (first x0 x1 x2 x4) x5 x6 x8 r j := by
  rw [val_main_v18_apply, val_main_v17_apply, val_main_v14_apply, val_main_v11_apply, val_main_v13_apply, val_main_v12_apply,
    val_main_v16_apply, val_main_v15_apply]
  have es : (∑ k : Fin 64, val_main_v9 (F := Ideal) x0 x1 x2 x4 (lidx_main_v11 (ix2 r j) k) * val_main_v10 (F := Ideal) x5 (ridx_main_v11 (ix2 r j) k))
      = ∑ k : Fin 64, first x0 x1 x2 x4 r k * x5 (ix2 j k) :=
    Finset.sum_congr rfl fun k _ => by
      have el : lidx_main_v11 (ix2 r j) k = ix2 r k := funext fun a => match a with | ⟨0, _⟩ => rfl | ⟨1, _⟩ => rfl
      have er : idx_main_v10 (ridx_main_v11 (ix2 r j) k) = ix2 j k := funext fun a => match a with | ⟨0, _⟩ => rfl | ⟨1, _⟩ => rfl
      rw [val_main_v10_apply, el, er, first_apply]
  have e2 : idx_main_v12 (idx_main_v13 (ix2 r j)) = ix1 j := funext fun a => match a with | ⟨0, _⟩ => rfl
  have e3 : idx_main_v15 (idx_main_v16 (ix2 r j)) = ix1 j := funext fun a => match a with | ⟨0, _⟩ => rfl
  rw [es, e2, e3]
  unfold second
  simp only [Ideal.hostUnary_tanh_def, Ideal.addf_def, add_assoc]

/-- The reference's head: the product over the 64 units of the second activation, plus the head's bias. -/
theorem head_apply (r : Fin 1000000) (o : Fin 2) :
    val_main_v23 (F := Ideal) x0 x1 x2 x4 x5 x6 x8 x9 x10 (ix2 r o) = head (second (first x0 x1 x2 x4) x5 x6 x8) x9 x10 r o := by
  rw [val_main_v23_apply, val_main_v20_apply, val_main_v22_apply, val_main_v21_apply]
  have es : (∑ k : Fin 64, val_main_v18 (F := Ideal) x0 x1 x2 x4 x5 x6 x8 (lidx_main_v20 (ix2 r o) k) * val_main_v19 (F := Ideal) x9 (ridx_main_v20 (ix2 r o) k))
      = ∑ k : Fin 64, second (first x0 x1 x2 x4) x5 x6 x8 r k * x9 (ix2 o k) :=
    Finset.sum_congr rfl fun k _ => by
      have el : lidx_main_v20 (ix2 r o) k = ix2 r k := funext fun a => match a with | ⟨0, _⟩ => rfl | ⟨1, _⟩ => rfl
      have er : idx_main_v19 (ridx_main_v20 (ix2 r o) k) = ix2 o k := funext fun a => match a with | ⟨0, _⟩ => rfl | ⟨1, _⟩ => rfl
      rw [val_main_v19_apply, el, er, second_apply]
  have e2 : idx_main_v21 (idx_main_v22 (ix2 r o)) = ix1 o := funext fun a => match a with | ⟨0, _⟩ => rfl
  rw [es, e2]
  unfold head
  simp only [Ideal.addf_def]

/-- The reference's first result is the specification's. -/
theorem out_eq : val_main_v23 (F := Ideal) x0 x1 x2 x4 x5 x6 x8 x9 x10 = outArr x0 x1 x2 x4 x5 x6 x8 x9 x10 := by
  funext i
  obtain ⟨r, o, rfl⟩ : ∃ (r : Fin 1000000) (o : Fin 2), i = ix2 r o := ⟨i 0, i 1, eq_ix2 i⟩
  exact head_apply x0 x1 x2 x4 x5 x6 x8 x9 x10 r o

/-- The reference's second result is the specification's: the stack of the two activations along a new leading axis. -/
theorem hid_eq : val_main_v26 (F := Ideal) x0 x1 x2 x4 x5 x6 x8 = hidArr x0 x1 x2 x4 x5 x6 x8 := by
  funext i
  obtain ⟨u, r, j, rfl⟩ : ∃ (u : Fin 2) (r : Fin 1000000) (j : Fin 64), i = ix3 u r j := ⟨i 0, i 1, i 2, eq_ix3 i⟩
  have e24 : idx_main_v24 (ix3 (0 : Fin 1) r j) = ix2 r j := funext fun a => match a with | ⟨0, _⟩ => rfl | ⟨1, _⟩ => rfl
  have e25 : idx_main_v25 (ix3 (0 : Fin 1) r j) = ix2 r j := funext fun a => match a with | ⟨0, _⟩ => rfl | ⟨1, _⟩ => rfl
  unfold val_main_v26
  show _ = if u.val = 0 then first x0 x1 x2 x4 r j else second (first x0 x1 x2 x4) x5 x6 x8 r j
  by_cases hu : u.val = 0
  · rw [if_pos hu]
    refine (concatenate_pair_apply_left _ _ _ concatenates_S1x1000000x64_S1x1000000x64_S2x1000000x64_d0 (ix3 u r j) rfl
      (ix3 (0 : Fin 1) r j) fun b => ?_).trans ?_
    · match b with
      | ⟨0, _⟩ => exact hu.symm
      | ⟨1, _⟩ => rfl
      | ⟨2, _⟩ => rfl
    · rw [val_main_v24_apply, e24, first_apply]
  · rw [if_neg hu]
    have hu1 : u.val = 1 := by have := u.isLt; omega
    refine (concatenate_pair_apply_right _ _ _ concatenates_S1x1000000x64_S1x1000000x64_S2x1000000x64_d0 (ix3 u r j) rfl rfl
      (ix3 (0 : Fin 1) r j) (fun b hb => ?_) ?_).trans ?_
    · match b with
      | ⟨0, _⟩ => exact absurd rfl hb
      | ⟨1, _⟩ => rfl
      | ⟨2, _⟩ => rfl
    · show 0 + 1 = u.val
      omega
    · rw [val_main_v25_apply, e25, second_apply]

end Cert.ReferenceIdeal.RefValue

end
-- ==== Proof.Payload.lean ====
/-
  The kernel body's arithmetic read entry by entry, over the extended reals.

  The body holds a band of 10000 entries. From the band x (a column), the first layer's weights w0 and bias c0
  (one row each), the second layer's weights T1 (64 × 64, already transposed: unit q is COLUMN q) and bias c1, and the head's
  weights Tf (64 × 2, transposed) and bias cf it computes

    a p q = tanh (x p · w0 q + c0 q)
    b p q = tanh (Σ_k a p k · T1 k q + c1 q)
    o p s = Σ_k b p k · Tf k s + cf s

  The roundings to a narrower format on the way into each product are the identity on the extended reals, and a product
  into a zero accumulator is the bare sum.
-/
import proofs.«134664_j13675175870864_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A column `[a, 1]` broadcast to `[a, b]` reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first layer on a band: entry `p`, unit `q`. -/
theorem pay2_apply (x0 : Vec Ideal S10000x1 .f32) (x1 x2 : Vec Ideal S1x64 .f32) (p : Fin 10000) (q : Fin 64) :
    k0_pay2 (F := Ideal) x0 x1 x2 (ix2 p q)
      = Ideal.tanh (x0 (ix2 p (0 : Fin 1)) * x1 (ix2 (0 : Fin 1) q) + x2 (ix2 (0 : Fin 1) q)) := by
  unfold k0_pay2
  simp only [shapeCast_self]
  show Ideal.tanh (broadcastTo S10000x64 x0 _ (ix2 p q) * broadcastTo S10000x64 x1 _ (ix2 p q) + broadcastTo S10000x64 x2 _ (ix2 p q)) = _
  rw [broadcastTo_a1_ab_apply, broadcastTo_1b_ab_apply, broadcastTo_1b_ab_apply]

/-! ## The two products of the body: a band against a 64-row matrix, into a zero accumulator, as a sum over the 64 units -/

theorem lhsA_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsA_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsA_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsA_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A band times a 64 × 64 matrix into the zero accumulator: entry `(p, q)` is `Σ_k A p k · B k q`. -/
theorem mmA_apply {φ₁ φ₂ : FTy} (A : FVec Ideal S10000x64 φ₁) (B : FVec Ideal S64x64 φ₂) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  refine (Ideal.matmul_constant_zero_apply dot_S10000x64_S64x64_S10000x64_1_0_0_1_n_n none A B (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhsA_0 _ _
    | ⟨1, _⟩ => exact (lhsA_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhsA_0 _ _).trans hk
    | ⟨1, _⟩ => exact rhsA_1 _ _)
  rw [el, er]

theorem lhsB_0 (i : S10000x2.Idx) (q : dot_S10000x64_S64x2_S10000x2_1_0_0_1_n_n.contr.Idx) :
    (dot_S10000x64_S64x2_S10000x2_1_0_0_1_n_n.lhsIdx i q 0).val = (i 0).val := by
  unfold DotDims.lhsIdx
  rw [dif_neg (show ¬(0 : Fin S10000x64.rank) ∈ dot_S10000x64_S64x2_S10000x2_1_0_0_1_n_n.lhsBatch by decide), dif_pos (show (0 : Fin S10000x64.rank) ∈ dot_S10000x64_S64x2_S10000x2_1_0_0_1_n_n.lhsNonContracting by decide)]
  rfl
theorem lhsB_1 (i : S10000x2.Idx) (q : dot_S10000x64_S64x2_S10000x2_1_0_0_1_n_n.contr.Idx) :
    (dot_S10000x64_S64x2_S10000x2_1_0_0_1_n_n.lhsIdx i q 1).val = (q ⟨0, by decide⟩).val :=
  dot_S10000x64_S64x2_S10000x2_1_0_0_1_n_n.lhsIdx_val_of_single rfl i q
theorem rhsB_0 (i : S10000x2.Idx) (q : dot_S10000x64_S64x2_S10000x2_1_0_0_1_n_n.contr.Idx) :
    (dot_S10000x64_S64x2_S10000x2_1_0_0_1_n_n.rhsIdx i q 0).val = (q ⟨0, by decide⟩).val :=
  dot_S10000x64_S64x2_S10000x2_1_0_0_1_n_n.rhsIdx_val_of_single rfl i q
theorem rhsB_1 (i : S10000x2.Idx) (q : dot_S10000x64_S64x2_S10000x2_1_0_0_1_n_n.contr.Idx) :
    (dot_S10000x64_S64x2_S10000x2_1_0_0_1_n_n.rhsIdx i q 1).val = (i 1).val := by
  unfold DotDims.rhsIdx
  rw [dif_neg (show ¬(1 : Fin S64x2.rank) ∈ dot_S10000x64_S64x2_S10000x2_1_0_0_1_n_n.rhsBatch by decide), dif_pos (show (1 : Fin S64x2.rank) ∈ dot_S10000x64_S64x2_S10000x2_1_0_0_1_n_n.rhsNonContracting by decide)]
  rfl

/-- A band times a 64 × 2 matrix into the zero accumulator: entry `(p, o)` is `Σ_k A p k · B k o`. -/
theorem mmB_apply {φ₁ φ₂ : FTy} (A : FVec Ideal S10000x64 φ₁) (B : FVec Ideal S64x2 φ₂) (p : Fin 10000) (o : Fin 2) :
    matmul dot_S10000x64_S64x2_S10000x2_1_0_0_1_n_n none A B (constant (F := Ideal) S10000x2 .f32 0x00000000#32) (ix2 p o)
      = ∑ k : Fin 64, A (ix2 p k) * B (ix2 k o) := by
  refine (Ideal.matmul_constant_zero_apply dot_S10000x64_S64x2_S10000x2_1_0_0_1_n_n none A B (ix2 p o)).trans ?_
  rw [← Equiv.sum_comp (ValueIdx.contrEquiv1 dot_S10000x64_S64x2_S10000x2_1_0_0_1_n_n 64 rfl rfl).symm]
  refine Finset.sum_congr rfl fun k _ => ?_
  have hk := ValueIdx.contrEquiv1_symm_val dot_S10000x64_S64x2_S10000x2_1_0_0_1_n_n 64 rfl rfl k
  have el : dot_S10000x64_S64x2_S10000x2_1_0_0_1_n_n.lhsIdx (ix2 p o) ((ValueIdx.contrEquiv1 dot_S10000x64_S64x2_S10000x2_1_0_0_1_n_n 64 rfl rfl).symm k) = ix2 p k := funext fun a => Fin.ext (by
    match a with
    | ⟨0, _⟩ => exact lhsB_0 _ _
    | ⟨1, _⟩ => exact (lhsB_1 _ _).trans hk)
  have er : dot_S10000x64_S64x2_S10000x2_1_0_0_1_n_n.rhsIdx (ix2 p o) ((ValueIdx.contrEquiv1 dot_S10000x64_S64x2_S10000x2_1_0_0_1_n_n 64 rfl rfl).symm k) = ix2 k o := funext fun a => Fin.ext (by
    match a with
    | ⟨0, _⟩ => exact (rhsB_0 _ _).trans hk
    | ⟨1, _⟩ => exact rhsB_1 _ _)
  rw [el, er]

/-! ## The second layer, the head, and the two stored slabs -/

/-- The second layer on a band: entry `p`, unit `q`. -/
theorem pay3_apply (x0 : Vec Ideal S10000x1 .f32) (x1 x2 : Vec Ideal S1x64 .f32) (x3 : Vec Ideal S64x64 .f32) (x4 : Vec Ideal S1x64 .f32)
    (p : Fin 10000) (q : Fin 64) :
    k0_pay3 (F := Ideal) x0 x1 x2 x3 x4 (ix2 p q)
      = Ideal.tanh ((∑ k : Fin 64, k0_pay2 (F := Ideal) x0 x1 x2 (ix2 p k) * x3 (ix2 k q)) + x4 (ix2 (0 : Fin 1) q)) := by
  unfold k0_pay3
  simp only [shapeCast_self]
  show Ideal.tanh (matmul dot_S10000x64_S64x64_S10000x64_1_0_0_1_n_n none (truncf .bf16 (k0_pay2 (F := Ideal) x0 x1 x2) bitsLt_bf16_f32)
      (truncf .bf16 x3 bitsLt_bf16_f32) (constant (F := Ideal) S10000x64 .f32 0x00000000#32) (ix2 p q)
      + broadcastTo S10000x64 x4 _ (ix2 p q)) = _
  rw [mmA_apply, broadcastTo_1b_ab_apply]
  rfl

/-- The head on a band: entry `p`, output `o`. -/
theorem pay4_apply (x0 : Vec Ideal S10000x1 .f32) (x1 x2 : Vec Ideal S1x64 .f32) (x3 : Vec Ideal S64x64 .f32) (x4 : Vec Ideal S1x64 .f32)
    (x5 : Vec Ideal S64x2 .f32) (x6 : Vec Ideal S1x2 .f32) (p : Fin 10000) (o : Fin 2) :
    k0_pay4 (F := Ideal) x0 x1 x2 x3 x4 x5 x6 (ix2 p o)
      = (∑ k : Fin 64, k0_pay3 (F := Ideal) x0 x1 x2 x3 x4 (ix2 p k) * x5 (ix2 k o)) + x6 (ix2 (0 : Fin 1) o) := by
  unfold k0_pay4
  simp only [shapeCast_self]
  show matmul dot_S10000x64_S64x2_S10000x2_1_0_0_1_n_n none (truncf .bf16 (k0_pay3 (F := Ideal) x0 x1 x2 x3 x4) bitsLt_bf16_f32)
      (truncf .bf16 x5 bitsLt_bf16_f32) (constant (F := Ideal) S10000x2 .f32 0x00000000#32) (ix2 p o)
      + broadcastTo S10000x2 x6 _ (ix2 p o) = _
  rw [mmB_apply, broadcastTo_1b_ab_apply]
  rfl

/-- The first stored slab is the first layer's band under a leading unit axis. -/
theorem pay5_apply (x0 : Vec Ideal S10000x1 .f32) (x1 x2 : Vec Ideal S1x64 .f32) (u : Fin 1) (p : Fin 10000) (q : Fin 64) :
    k0_pay5 (F := Ideal) x0 x1 x2 (ix3 u p q) = k0_pay2 (F := Ideal) x0 x1 x2 (ix2 p q) := by
  unfold k0_pay5
  exact shapeCast_ab_1ab_apply _ _ u p q

/-- The second stored slab is the band handed to it under a leading unit axis. -/
theorem pay1_apply (v : FVec Ideal S10000x64 .f32) (u : Fin 1) (p : Fin 10000) (q : Fin 64) :
    k0_pay1 (F := Ideal) v (ix3 u p q) = v (ix2 p q) := by
  unfold k0_pay1
  exact shapeCast_ab_1ab_apply _ _ u p q

end Cert.KernelIdeal.Body

end
-- ==== Proof.Band.lean ====
/-
  One grid point's work is the specification on that point's band of entries.

  Suppose the body's seven operands are: a band of the input (entry p of the band is entry ρ p of the input), the first
  layer's weights and added biases as rows, the second layer's weights transposed and its added biases as a row, the head's
  weights transposed and its bias as a row. Then what the body leaves in its two output buffers is, entry by entry, the head
  at entry ρ p and the two activations at entry ρ p — slab 0 the first layer, slab 1 the second.
-/
import proofs.«134664_j13675175870864_2_alg».proof.Proof.Gen.KernelIdeal.Frame
import proofs.«134664_j13675175870864_2_alg».proof.Proof.Payload
import proofs.«134664_j13675175870864_2_alg».proof.Proof.Spec

noncomputable section

namespace Cert.KernelIdeal.Band

open Cert.KernelIdeal Cert.KernelIdeal.Gen Cert.KernelIdeal.Body Idealize.ShloMosaic Idealize.ShloMosaic.ValueIdx Cert.Stacked

theorem hz2 : (![0, 0] : Fin 2 → Nat) = fun _ => 0 := funext fun a => by fin_cases a <;> rfl

variable (x0 : Vec Ideal S10000x1 .f32) (x1 x2 : Vec Ideal S1x64 .f32) (x3 : Vec Ideal S64x64 .f32) (x4 : Vec Ideal S1x64 .f32)
  (x5 : Vec Ideal S64x2 .f32) (x6 : Vec Ideal S1x2 .f32)
  (X : Seq.Idx → EReal) (W0 : Col.Idx → EReal) (b0 b0' : Row.Idx → EReal) (W1 : Sq.Idx → EReal) (b1 b1' : Row.Idx → EReal)
  (Wf : HeadW.Idx → EReal) (bf : HeadB.Idx → EReal) (ρ : Fin 10000 → Fin 1000000)

/-- The body's seven operands are the band `ρ` of the input and the layers' parameters re-laid as the body reads them. -/
structure IsBand : Prop where
  x : ∀ p : Fin 10000, x0 (ix2 p (0 : Fin 1)) = X (ix1 (ρ p))
  w0 : ∀ q : Fin 64, x1 (ix2 (0 : Fin 1) q) = W0 (ix2 q (0 : Fin 1))
  c0 : ∀ q : Fin 64, x2 (ix2 (0 : Fin 1) q) = b0 (ix1 q) + b0' (ix1 q)
  w1 : ∀ k q : Fin 64, x3 (ix2 k q) = W1 (ix2 q k)
  c1 : ∀ q : Fin 64, x4 (ix2 (0 : Fin 1) q) = b1 (ix1 q) + b1' (ix1 q)
  wf : ∀ (k : Fin 64) (o : Fin 2), x5 (ix2 k o) = Wf (ix2 o k)
  cf : ∀ o : Fin 2, x6 (ix2 (0 : Fin 1) o) = bf (ix1 o)

variable {x0 x1 x2 x3 x4 x5 x6 X W0 b0 b0' W1 b1 b1' Wf bf ρ}
variable (h : IsBand x0 x1 x2 x3 x4 x5 x6 X W0 b0 b0' W1 b1 b1' Wf bf ρ)
include h

/-- The body's first activation on the band is the first layer at the band's entries. -/
theorem first_of (p : Fin 10000) (q : Fin 64) :
    k0_pay2 (F := Ideal) x0 x1 x2 (ix2 p q) = first X W0 b0 b0' (ρ p) q := by
  rw [pay2_apply, h.x, h.w0, h.c0]
  rfl

/-- The body's second activation on the band is the second layer at the band's entries. -/
theorem second_of (p : Fin 10000) (q : Fin 64) :
    k0_pay3 (F := Ideal) x0 x1 x2 x3 x4 (ix2 p q) = second (first X W0 b0 b0') W1 b1 b1' (ρ p) q := by
  rw [pay3_apply, h.c1]
  unfold second
  refine congrArg Ideal.tanh (congrArg (· + _) (Finset.sum_congr rfl fun k _ => ?_))
  rw [first_of h, h.w1]

/-- The body's head on the band is the head at the band's entries. -/
theorem head_of (p : Fin 10000) (o : Fin 2) :
    k0_pay4 (F := Ideal) x0 x1 x2 x3 x4 x5 x6 (ix2 p o) = head (second (first X W0 b0 b0') W1 b1 b1') Wf bf (ρ p) o := by
  rw [pay4_apply, h.cf]
  unfold head
  refine congrArg (· + _) (Finset.sum_congr rfl fun k _ => ?_)
  rw [second_of h, h.wf]

/-- What the body leaves in the first output's buffer: one store of the whole band's heads. -/
theorem out7_apply (p : Fin 10000) (o : Fin 2) :
    out0_7 (F := Ideal) x0 x1 x2 x3 x4 x5 x6 (ix2 p o) = head (second (first X W0 b0 b0') W1 b1 b1') Wf bf (ρ p) o := by
  unfold out0_7
  rw [View.canon_unit_zero hz2]
  simp only [View.ld_unit_zero (S := S10000x1) hz2, View.ld_unit_zero (S := S1x64) hz2, View.ld_unit_zero (S := S64x64) hz2,
    View.ld_unit_zero (S := S64x2) hz2, View.ld_unit_zero (S := S1x2) hz2]
  exact head_of h p o

omit h in
/-- The two activations of a band as one function of the second output buffer's index: slab 0 the first, slab 1 the second. -/
def slabs (X : Seq.Idx → EReal) (W0 : Col.Idx → EReal) (b0 b0' : Row.Idx → EReal) (W1 : Sq.Idx → EReal) (b1 b1' : Row.Idx → EReal)
    (ρ : Fin 10000 → Fin 1000000) : S2x10000x64.Idx → EReal :=
  fun y => if (y 0).val = 0 then first X W0 b0 b0' (ρ (y 1)) (y 2) else second (first X W0 b0 b0') W1 b1 b1' (ρ (y 1)) (y 2)

/-- What the body leaves in the second output's buffer: two stores, each a whole slab, that tile it. -/
theorem out8_apply (y : S2x10000x64.Idx) :
    out0_8 (F := Ideal) x0 x1 x2 x3 x4 x5 x6 y = slabs X W0 b0 b0' W1 b1 b1' ρ y := by
  unfold out0_8
  simp only [View.ld_unit_zero (S := S10000x1) hz2, View.ld_unit_zero (S := S1x64) hz2, View.ld_unit_zero (S := S64x64) hz2]
  refine View.canon_apply_of_pieces (Val := Elt Ideal) (e := .f32) (slabs X W0 b0 b0' W1 b1 b1' ρ) _ (fun pc hpc x => ?_) y (cover0_8 _ _ y)
  rcases List.mem_cons.mp hpc with rfl | hpc'
  · obtain ⟨u, p, q, rfl⟩ : ∃ (u : Fin 1) (p : Fin 10000) (q : Fin 64), x = ix3 u p q := ⟨x 0, x 1, x 2, eq_ix3 x⟩
    have e : r0_7.emb (ix3 u p q) = ix3 (1 : Fin 2) p q := funext fun a => Fin.ext (by
      match a with
      | ⟨0, _⟩ => show 1 + 1 * u.val = 1; omega
      | ⟨1, _⟩ => show 0 + 1 * p.val = p.val; omega
      | ⟨2, _⟩ => show 0 + 1 * q.val = q.val; omega)
    show k0_pay1 (F := Ideal) (k0_pay3 (F := Ideal) x0 x1 x2 x3 x4) (ix3 u p q) = slabs X W0 b0 b0' W1 b1 b1' ρ (r0_7.emb (ix3 u p q))
    rw [e, pay1_apply, second_of h]
    exact (if_neg (show ¬ ((1 : Fin 2).val = 0) by decide)).symm
  · obtain rfl := List.mem_singleton.mp hpc'
    obtain ⟨u, p, q, rfl⟩ : ∃ (u : Fin 1) (p : Fin 10000) (q : Fin 64), x = ix3 u p q := ⟨x 0, x 1, x 2, eq_ix3 x⟩
    have e : r0_6.emb (ix3 u p q) = ix3 (0 : Fin 2) p q := funext fun a => Fin.ext (by
      match a with
      | ⟨0, _⟩ => show 0 + 1 * u.val = 0; omega
      | ⟨1, _⟩ => show 0 + 1 * p.val = p.val; omega
      | ⟨2, _⟩ => show 0 + 1 * q.val = q.val; omega)
    show k0_pay5 (F := Ideal) x0 x1 x2 (ix3 u p q) = slabs X W0 b0 b0' W1 b1 b1' ρ (r0_6.emb (ix3 u p q))
    rw [e, pay5_apply, first_of h]
    exact (if_pos rfl).symm

end Cert.KernelIdeal.Band

end
-- ==== Proof.HostPrefix.lean ====
/-
  What the kernel's region finds in the seven arrays it stages.

  Before the region the program re-lays its arguments: the input as a column, each weight matrix transposed, the two
  biases of each layer added and laid as a row, the head's bias laid as a row. Each staged array is that operation's term of the
  launch contents.
-/
import proofs.«134664_j13675175870864_2_alg».proof.Proof.Gen.KernelIdeal.Frame
import Idealize.ShloMosaic.Lib.StableHlo.Run

noncomputable section

namespace Cert.KernelIdeal.Staged

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The input, as a column. -/
theorem V_v0 (c : Dev nD) : (V m c main_v0 : S1000000x1.Idx → Elt F .f32)
    = shapeCast S1000000x1 (m ((c : Thread nD τ).loc main_arg0)) shapeCasts_S1000000_S1000000x1 := by
  dsimp only [Gen.V, Gen.hostOps0]; after_results; rfl

/-- The first layer's weights, transposed to a row. -/
theorem V_v1 (c : Dev nD) : (V m c main_v1 : S1x64.Idx → Elt F .f32)
    = transpose S1x64 [1, 0] (m ((c : Thread nD τ).loc main_arg1)) transposes_S64x1_S1x64_1_0 := by
  dsimp only [Gen.V, Gen.hostOps0]; after_results

/-- The first layer's two biases added, as a row. -/
theorem V_v3 (c : Dev nD) : (V m c main_v3 : S1x64.Idx → Elt F .f32)
    = shapeCast S1x64 (addf (m ((c : Thread nD τ).loc main_arg2)) (m ((c : Thread nD τ).loc main_arg4))) shapeCasts_S64_S1x64 := by
  dsimp only [Gen.V, Gen.hostOps0]; after_results; rfl

/-- The second layer's weights, transposed. -/
theorem V_v4 (c : Dev nD) : (V m c main_v4 : S64x64.Idx → Elt F .f32)
    = transpose S64x64 [1, 0] (m ((c : Thread nD τ).loc main_arg5)) transposes_S64x64_S64x64_1_0 := by
  dsimp only [Gen.V, Gen.hostOps0]; after_results

/-- The second layer's two biases added, as a row. -/
theorem V_v6 (c : Dev nD) : (V m c main_v6 : S1x64.Idx → Elt F .f32)
    = shapeCast S1x64 (addf (m ((c : Thread nD τ).loc main_arg6)) (m ((c : Thread nD τ).loc main_arg8))) shapeCasts_S64_S1x64 := by
  dsimp only [Gen.V, Gen.hostOps0]; after_results; rfl

/-- The head's weights, transposed. -/
theorem V_v7 (c : Dev nD) : (V m c main_v7 : S64x2.Idx → Elt F .f32)
    = transpose S64x2 [1, 0] (m ((c : Thread nD τ).loc main_arg9)) transposes_S2x64_S64x2_1_0 := by
  dsimp only [Gen.V, Gen.hostOps0]; after_results

/-- The head's bias, as a row. -/
theorem V_v8 (c : Dev nD) : (V m c main_v8 : S1x2.Idx → Elt F .f32)
    = shapeCast S1x2 (m ((c : Thread nD τ).loc main_arg10)) shapeCasts_S2_S1x2 := by
  dsimp only [Gen.V, Gen.hostOps0]; after_results; rfl

end Cert.KernelIdeal.Staged

end
-- ==== Proof.Whole.lean ====
/-
  From grid points to whole arrays.

  The grid has 100 points; point t works on entries 10000·t … 10000·t + 9999 of the input, reads every parameter whole, and
  writes back rows 10000·t … of the first result and, of the second, the same rows of both slabs. The blocks of the 100 points
  tile each result array, so after the run the first result holds the head and the second the two activations, entry by
  entry, as one function of the launch contents.
-/
import proofs.«134664_j13675175870864_2_alg».proof.Proof.Gen.KernelIdeal.Value
import proofs.«134664_j13675175870864_2_alg».proof.Proof.Band
import proofs.«134664_j13675175870864_2_alg».proof.Proof.HostPrefix
import Idealize.ShloMosaic.Lib.ValueLayout

noncomputable section

namespace Cert.KernelIdeal.Whole

open Cert.KernelIdeal Cert.KernelIdeal.Gen Cert.KernelIdeal.Band Cert.KernelIdeal.Staged
open Idealize.ShloMosaic Idealize.ShloMosaic.TcCoe Idealize.SL.Sem Idealize.ShloMosaic.ValueIdx Cert.Stacked
open Idealize.ShloMosaic.Pipeline (Dat)

variable (m : (ℓ : Loc nD τ sig) → Buf (Elt Ideal) ℓ) (ρ : Dev nD → PrngReg)

/-! ## Where each window's block sits at a point (decided over the 100 points) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 3) = 0 ∧ win0_8.index t (1 : Fin 3) = t.val ∧ win0_8.index t (2 : Fin 3) = 0 :=
  (by decide +kernel : ∀ t : Fin grid0.N, _)

/-- Entry `p` of point `t`'s band is entry `10000·t + p` of the input. -/
def rowOf (t : Fin cfg0.N) (p : Fin 10000) : Fin 1000000 :=
  ⟨10000 * t.val + p.val, by have h := t.isLt; have hN : cfg0.N = 100 := N_0; have := p.isLt; omega⟩

/-! ## The seven input blocks at a point, read off the launch contents -/

/-- The input's block: a band of the input, as a column. -/
theorem blk0 (c : Dev nD) (t : Fin cfg0.N) (p : Fin 10000) :
    (iblk m c 0 t : Vec Ideal S10000x1 .f32) (ix2 p (0 : Fin 1))
      = (m ((c : Thread nD τ).loc main_arg0) : S1000000.Idx → EReal) (ix1 (rowOf t p)) := by
  obtain ⟨e0, e1⟩ := idx0 t
  unfold iblk
  rw [View.read_apply]
  show V m c main_v0 (((cfg0.win 0).blk t).view.emb (ix2 p (0 : Fin 1))) = _
  rw [V_v0 m c]
  refine shapeCast_apply _ _ _ (ix1 (rowOf t p)) ?_
  rw [Shape.rowMajor_val_one, Shape.rowMajor_val_two]
  show 10000 * t.val + p.val = (win0_0.index t (0 : Fin 2) * 10000 + 1 * p.val) * 1 + (win0_0.index t (1 : Fin 2) * 1 + 1 * 0)
  rw [e0, e1]; omega

/-- The first layer's weights: unit `q` of the row is row `q` of the stored column. -/
theorem blk1 (c : Dev nD) (t : Fin cfg0.N) (q : Fin 64) :
    (iblk m c 1 t : Vec Ideal S1x64 .f32) (ix2 (0 : Fin 1) q)
      = (m ((c : Thread nD τ).loc main_arg1) : S64x1.Idx → EReal) (ix2 q (0 : Fin 1)) := by
  obtain ⟨e0, e1⟩ := idx1 t
  unfold iblk
  rw [View.read_apply]
  show V m c main_v1 (((cfg0.win 1).blk t).view.emb (ix2 (0 : Fin 1) q)) = _
  rw [V_v1 m c]
  refine transpose_apply [1, 0] _ transposes_S64x1_S1x64_1_0 _ (ix2 q (0 : Fin 1)) fun b => ?_
  match b with
  | ⟨0, _⟩ => show 0 = win0_1.index t (0 : Fin 2) * 1 + 1 * 0; rw [e0]
  | ⟨1, _⟩ => show q.val = win0_1.index t (1 : Fin 2) * 64 + 1 * q.val; rw [e1]; omega

/-- The first layer's bias row: the two biases added. -/
theorem blk2 (c : Dev nD) (t : Fin cfg0.N) (q : Fin 64) (b b' : S64.Idx → EReal)
    (hb : b = m ((c : Thread nD τ).loc main_arg2)) (hb' : b' = m ((c : Thread nD τ).loc main_arg4)) :
    (iblk m c 2 t : Vec Ideal S1x64 .f32) (ix2 (0 : Fin 1) q) = b (ix1 q) + b' (ix1 q) := by
  subst hb hb'
  obtain ⟨e0, e1⟩ := idx2 t
  unfold iblk
  rw [View.read_apply]
  show V m c main_v3 (((cfg0.win 2).blk t).view.emb (ix2 (0 : Fin 1) q)) = _
  rw [V_v3 m c]
  refine (shapeCast_apply _ _ _ (ix1 q) ?_).trans rfl
  rw [Shape.rowMajor_val_one, Shape.rowMajor_val_two]
  show q.val = (win0_2.index t (0 : Fin 2) * 1 + 1 * 0) * 64 + (win0_2.index t (1 : Fin 2) * 64 + 1 * q.val)
  rw [e0, e1]; omega

/-- The second layer's weights, transposed: entry `(k, q)` is the stored `(q, k)`. -/
theorem blk3 (c : Dev nD) (t : Fin cfg0.N) (k q : Fin 64) :
    (iblk m c 3 t : Vec Ideal S64x64 .f32) (ix2 k q)
      = (m ((c : Thread nD τ).loc main_arg5) : S64x64.Idx → EReal) (ix2 q k) := by
  obtain ⟨e0, e1⟩ := idx3 t
  unfold iblk
  rw [View.read_apply]
  show V m c main_v4 (((cfg0.win 3).blk t).view.emb (ix2 k q)) = _
  rw [V_v4 m c]
  refine transpose_apply [1, 0] _ transposes_S64x64_S64x64_1_0 _ (ix2 q k) fun b => ?_
  match b with
  | ⟨0, _⟩ => show k.val = win0_3.index t (0 : Fin 2) * 64 + 1 * k.val; rw [e0]; omega
  | ⟨1, _⟩ => show q.val = win0_3.index t (1 : Fin 2) * 64 + 1 * q.val; rw [e1]; omega

/-- The second layer's bias row: the two biases added. -/
theorem blk4 (c : Dev nD) (t : Fin cfg0.N) (q : Fin 64) (b b' : S64.Idx → EReal)
    (hb : b = m ((c : Thread nD τ).loc main_arg6)) (hb' : b' = m ((c : Thread nD τ).loc main_arg8)) :
    (iblk m c 4 t : Vec Ideal S1x64 .f32) (ix2 (0 : Fin 1) q) = b (ix1 q) + b' (ix1 q) := by
  subst hb hb'
  obtain ⟨e0, e1⟩ := idx4 t
  unfold iblk
  rw [View.read_apply]
  show V m c main_v6 (((cfg0.win 4).blk t).view.emb (ix2 (0 : Fin 1) q)) = _
  rw [V_v6 m c]
  refine (shapeCast_apply _ _ _ (ix1 q) ?_).trans rfl
  rw [Shape.rowMajor_val_one, Shape.rowMajor_val_two]
  show q.val = (win0_4.index t (0 : Fin 2) * 1 + 1 * 0) * 64 + (win0_4.index t (1 : Fin 2) * 64 + 1 * q.val)
  rw [e0, e1]; omega

/-- The head's weights, transposed: entry `(k, o)` is the stored `(o, k)`. -/
theorem blk5 (c : Dev nD) (t : Fin cfg0.N) (k : Fin 64) (o : Fin 2) :
    (iblk m c 5 t : Vec Ideal S64x2 .f32) (ix2 k o)
      = (m ((c : Thread nD τ).loc main_arg9) : S2x64.Idx → EReal) (ix2 o k) := by
  obtain ⟨e0, e1⟩ := idx5 t
  unfold iblk
  rw [View.read_apply]
  show V m c main_v7 (((cfg0.win 5).blk t).view.emb (ix2 k o)) = _
  rw [V_v7 m c]
  refine transpose_apply [1, 0] _ transposes_S2x64_S64x2_1_0 _ (ix2 o k) fun b => ?_
  match b with
  | ⟨0, _⟩ => show k.val = win0_5.index t (0 : Fin 2) * 64 + 1 * k.val; rw [e0]; omega
  | ⟨1, _⟩ => show o.val = win0_5.index t (1 : Fin 2) * 2 + 1 * o.val; rw [e1]; omega

/-- The head's bias, as a row. -/
theorem blk6 (c : Dev nD) (t : Fin cfg0.N) (o : Fin 2) :
    (iblk m c 6 t : Vec Ideal S1x2 .f32) (ix2 (0 : Fin 1) o)
      = (m ((c : Thread nD τ).loc main_arg10) : S2.Idx → EReal) (ix1 o) := by
  obtain ⟨e0, e1⟩ := idx6 t
  unfold iblk
  rw [View.read_apply]
  show V m c main_v8 (((cfg0.win 6).blk t).view.emb (ix2 (0 : Fin 1) o)) = _
  rw [V_v8 m c]
  refine shapeCast_apply _ _ _ (ix1 o) ?_
  rw [Shape.rowMajor_val_one, Shape.rowMajor_val_two]
  show o.val = (win0_6.index t (0 : Fin 2) * 1 + 1 * 0) * 2 + (win0_6.index t (1 : Fin 2) * 2 + 1 * o.val)
  rw [e0, e1]; omega

/-- At every point the body's operands are that point's band and the parameters, re-laid. -/
theorem isBand (c : Dev nD) (t : Fin cfg0.N) :
    IsBand (iblk m c 0 t) (iblk m c 1 t) (iblk m c 2 t) (iblk m c 3 t) (iblk m c 4 t) (iblk m c 5 t) (iblk m c 6 t)
      (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (rowOf t) :=
  ⟨blk0 m c t, blk1 m c t, fun q => blk2 m c t q _ _ rfl rfl, blk3 m c t, fun q => blk4 m c t q _ _ rfl rfl, blk5 m c t, blk6 m c t⟩

/-! ## The first result -/

/-- The first result as one function of the launch contents. -/
abbrev outG (c : Dev nD) : S1000000x2.Idx → EReal := outArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10))

/-- Point `t` writes back rows `10000·t …` of the head. -/
theorem flushed7_eq (c : Dev nD) (t : Fin cfg0.N) :
    (dats m 0 c).flushed 7 t = ((cfg0.win 7).blk t).view.read (Elt Ideal) (outG m c) := by
  obtain ⟨e0, e1⟩ := idx7 t
  rw [Value.flushed7]
  funext y
  obtain ⟨p, o, rfl⟩ : ∃ (p : Fin 10000) (o : Fin 2), y = ix2 p o := ⟨y 0, y 1, eq_ix2 y⟩
  show out0_7 (iblk m c 0 t) (iblk m c 1 t) (iblk m c 2 t) (iblk m c 3 t) (iblk m c 4 t) (iblk m c 5 t) (iblk m c 6 t) (ix2 p o) = outG m c (((cfg0.win 7).blk t).view.emb (ix2 p o))
  rw [out7_apply (isBand m c t)]
  have ee : ((cfg0.win 7).blk t).view.emb (ix2 p o) = ix2 (rowOf t p) o := funext fun a => Fin.ext (by
    match a with
    | ⟨0, _⟩ => show win0_7.index t (0 : Fin 2) * 10000 + 1 * p.val = 10000 * t.val + p.val; rw [e0]; omega
    | ⟨1, _⟩ => show win0_7.index t (1 : Fin 2) * 2 + 1 * o.val = o.val; rw [e1]; omega)
  rw [ee]
  rfl

/-- An entry of the first result is in point `t`'s block iff each coordinate is in the block's range. -/
theorem mem_blk7 (t : Fin cfg0.N) (i : S1000000x2.Idx) :
    i ∈ ((cfg0.win 7).blk t).view.set ↔ ∀ a : Fin 2, win0_7.index t a * S10000x2.size a ≤ (i a).val ∧ (i a).val < win0_7.index t a * S10000x2.size a + S10000x2.size a := by
  show i ∈ ((View.whole main_v9_0).slice (win0_7.rect t)).set ↔ _
  rw [View.set_slice_whole, Rect.mem_set_unit]
  exact Iff.rfl

/-- Row `r` of the first result is in the block of point `r / 10000`. -/
theorem cover7 (i : S1000000x2.Idx) : ∃ t : Fin cfg0.N, (cfg0.win 7).flush t = true ∧ i ∈ ((cfg0.win 7).blk t).view.set := by
  have hN : cfg0.N = 100 := N_0
  have hi0 : (i 0).val < 1000000 := (i 0).isLt
  have hi1 : (i 1).val < 2 := (i 1).isLt
  obtain ⟨t, ht⟩ : ∃ t : Fin cfg0.N, t.val = (i 0).val / 10000 := ⟨⟨(i 0).val / 10000, by omega⟩, rfl⟩
  obtain ⟨e0, e1⟩ := idx7 t
  refine ⟨t, flush0_7 t, ?_⟩
  rw [mem_blk7]
  intro a
  match a with
  | ⟨0, _⟩ => show win0_7.index t (0 : Fin 2) * 10000 ≤ (i 0).val ∧ (i 0).val < win0_7.index t (0 : Fin 2) * 10000 + 10000; rw [e0, ht]; omega
  | ⟨1, _⟩ => show win0_7.index t (1 : Fin 2) * 2 ≤ (i 1).val ∧ (i 1).val < win0_7.index t (1 : Fin 2) * 2 + 2; rw [e1]; omega

/-- After the run the first result holds the head, entry by entry. -/
theorem final7 (c : Dev nD) : (dats m 0 c).arrAt 7 cfg0.N = outG m c :=
  (dats m 0 c).arrAt_eq_of_cover 7 (outG m c) (fun t _ => flushed7_eq m c t) cover7

/-! ## The second result -/

/-- The second result as one function of the launch contents. -/
abbrev hidG (c : Dev nD) : S2x1000000x64.Idx → EReal := hidArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8))

/-- Point `t` writes back rows `10000·t …` of both slabs. -/
theorem flushed8_eq (c : Dev nD) (t : Fin cfg0.N) :
    (dats m 0 c).flushed 8 t = ((cfg0.win 8).blk t).view.read (Elt Ideal) (hidG m c) := by
  obtain ⟨e0, e1, e2⟩ := idx8 t
  rw [Value.flushed8]
  funext y
  obtain ⟨u, p, q, rfl⟩ : ∃ (u : Fin 2) (p : Fin 10000) (q : Fin 64), y = ix3 u p q := ⟨y 0, y 1, y 2, eq_ix3 y⟩
  show out0_8 (iblk m c 0 t) (iblk m c 1 t) (iblk m c 2 t) (iblk m c 3 t) (iblk m c 4 t) (iblk m c 5 t) (iblk m c 6 t) (ix3 u p q) = hidG m c (((cfg0.win 8).blk t).view.emb (ix3 u p q))
  rw [out8_apply (isBand m c t)]
  have ee : ((cfg0.win 8).blk t).view.emb (ix3 u p q) = ix3 u (rowOf t p) q := funext fun a => Fin.ext (by
    match a with
    | ⟨0, _⟩ => show win0_8.index t (0 : Fin 3) * 2 + 1 * u.val = u.val; rw [e0]; omega
    | ⟨1, _⟩ => show win0_8.index t (1 : Fin 3) * 10000 + 1 * p.val = 10000 * t.val + p.val; rw [e1]; omega
    | ⟨2, _⟩ => show win0_8.index t (2 : Fin 3) * 64 + 1 * q.val = q.val; rw [e2]; omega)
  rw [ee]
  rfl

/-- An entry of the second result is in point `t`'s block iff each coordinate is in the block's range. -/
theorem mem_blk8 (t : Fin cfg0.N) (i : S2x1000000x64.Idx) :
    i ∈ ((cfg0.win 8).blk t).view.set ↔ ∀ a : Fin 3, win0_8.index t a * S2x10000x64.size a ≤ (i a).val ∧ (i a).val < win0_8.index t a * S2x10000x64.size a + S2x10000x64.size a := by
  show i ∈ ((View.whole main_v9_1).slice (win0_8.rect t)).set ↔ _
  rw [View.set_slice_whole, Rect.mem_set_unit]
  exact Iff.rfl

/-- Row `r` of either slab is in the block of point `r / 10000`. -/
theorem cover8 (i : S2x1000000x64.Idx) : ∃ t : Fin cfg0.N, (cfg0.win 8).flush t = true ∧ i ∈ ((cfg0.win 8).blk t).view.set := by
  have hN : cfg0.N = 100 := N_0
  have hi0 : (i 0).val < 2 := (i 0).isLt
  have hi1 : (i 1).val < 1000000 := (i 1).isLt
  have hi2 : (i 2).val < 64 := (i 2).isLt
  obtain ⟨t, ht⟩ : ∃ t : Fin cfg0.N, t.val = (i 1).val / 10000 := ⟨⟨(i 1).val / 10000, by omega⟩, rfl⟩
  obtain ⟨e0, e1, e2⟩ := idx8 t
  refine ⟨t, flush0_8 t, ?_⟩
  rw [mem_blk8]
  intro a
  match a with
  | ⟨0, _⟩ => show win0_8.index t (0 : Fin 3) * 2 ≤ (i 0).val ∧ (i 0).val < win0_8.index t (0 : Fin 3) * 2 + 2; rw [e0]; omega
  | ⟨1, _⟩ => show win0_8.index t (1 : Fin 3) * 10000 ≤ (i 1).val ∧ (i 1).val < win0_8.index t (1 : Fin 3) * 10000 + 10000; rw [e1, ht]; omega
  | ⟨2, _⟩ => show win0_8.index t (2 : Fin 3) * 64 ≤ (i 2).val ∧ (i 2).val < win0_8.index t (2 : Fin 3) * 64 + 64; rw [e2]; omega

/-- After the run the second result holds the two activations, entry by entry. -/
theorem final8 (c : Dev nD) : (dats m 0 c).arrAt 8 cfg0.N = hidG m c :=
  (dats m 0 c).arrAt_eq_of_cover 8 (hidG m c) (fun t _ => flushed8_eq m c t) cover8

/-! ## The run -/

/-- Every execution of the kernel's program ends with the two results at the specification of the launch contents, the
    arguments unchanged. -/
theorem run : θ_run defs (onTc (τ := τ) (main (F := Ideal))) ⟨m, fun _ => 0, ρ⟩ fun r => ∀ c : Dev nD,
      r.2.mem ((c : Thread nD τ).loc main_v9_0) = outG m c
      ∧ r.2.mem ((c : Thread nD τ).loc main_v9_1) = hidG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final7 m c), (h c).2.1.trans (final8 m c), (h c).2.2⟩)
    (Value.run_blocks m ρ)

end Cert.KernelIdeal.Whole

end
-- ==== Proof.lean ====
/-
  A stack of two one-step recurrent layers and a linear head over 1,000,000 independent scalar entries, computed by a kernel
  that walks the entries in 100 bands of 10,000, against the same network written with whole-array matrix products.

  With zero initial state a recurrent layer's one step is a dense layer through tanh, so both programs compute, for every
  entry x r,

    first r j  = tanh (x r · W0 j 0 + (b0 j + b0' j))
    second r j = tanh (Σ_k first r k · W1 j k + (b1 j + b1' j))
    head r o   = Σ_k second r k · Wf o k + bf o,

  and return head together with the stack of first on second (Spec). The reference reaches these by matrix products against
  transposed weights and adds the two biases one after the other; a product over a contracted axis of extent one is its single
  term and addition of extended reals is associative, so its terms are the specification (RefSide). The kernel transposes the
  weights and adds the biases before its grid; at each of the 100 points its body computes the three layers on a band of 10,000
  entries, narrowing to a shorter format on the way into each product, which on the extended reals changes nothing (Payload, Band);
  the staged arrays are the re-laid arguments (HostPrefix), every point's blocks are restrictions of the specification, and
  the blocks tile both results (Whole). No step needs the inputs to be finite: only associativity of addition is used.
  The idealization rewrote nothing, so the kernel and its idealization are one text.
-/
import proofs.«134664_j13675175870864_2_alg».proof.Defs
import proofs.«134664_j13675175870864_2_alg».proof.Proof.Gen.Kernel
import proofs.«134664_j13675175870864_2_alg».proof.Proof.Gen.Kernel.Skeleton
import proofs.«134664_j13675175870864_2_alg».proof.Proof.Gen.Kernel.Launch
import proofs.«134664_j13675175870864_2_alg».proof.Proof.Gen.Kernel.Points
import proofs.«134664_j13675175870864_2_alg».proof.Proof.Gen.Kernel.Frame
import proofs.«134664_j13675175870864_2_alg».proof.Proof.Gen.KernelIdeal
import proofs.«134664_j13675175870864_2_alg».proof.Proof.Gen.KernelIdeal.Skeleton
import proofs.«134664_j13675175870864_2_alg».proof.Proof.Gen.KernelIdeal.Launch
import proofs.«134664_j13675175870864_2_alg».proof.Proof.Gen.KernelIdeal.Points
import proofs.«134664_j13675175870864_2_alg».proof.Proof.Gen.KernelIdeal.Frame
import proofs.«134664_j13675175870864_2_alg».proof.Proof.Gen.ReferenceIdeal
import proofs.«134664_j13675175870864_2_alg».proof.Proof.Gen.Pre_finite_inputs
import proofs.«134664_j13675175870864_2_alg».proof.Proof.Gen.KernelIdeal.Value
import proofs.«134664_j13675175870864_2_alg».proof.Proof.Gen.ReferenceIdeal.Run
import proofs.«134664_j13675175870864_2_alg».proof.Proof.Gen.ReferenceIdeal.Read
import proofs.«134664_j13675175870864_2_alg».proof.Proof.RefSide
import proofs.«134664_j13675175870864_2_alg».proof.Proof.Whole
import Idealize.ShloMosaic.Adequacy
import Idealize.ShloMosaic.Init

noncomputable section

namespace Cert.Proof

open Idealize.ShloMosaic Idealize.SL.Sem

/-- The kernel's program runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as they were: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- From agreeing arguments both programs end with the head and the stacked activations of the specification. -/
theorem algebraic : Cert.algebraic_KernelIdeal_ReferenceIdeal := by
  intro m ρ m' ρ' _ hagree
  refine ⟨fun c => Cert.KernelIdeal.Whole.outG m c, fun c => Cert.KernelIdeal.Whole.hidG m c, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v23_eq, Cert.ReferenceIdeal.RefValue.out_eq, a0, a1, a2, a4, a5, a6, a8, a9, a10]
  · obtain ⟨a0, a1, a2, a3, a4, a5, a6, a7, a8, a9, a10⟩ := hagree c
    rw [Cert.ReferenceIdeal.Read.val_main_v26_eq, Cert.ReferenceIdeal.RefValue.hid_eq, a0, a1, a2, a4, a5, a6, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
